-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8192x2048 : Shape := ⟨2, ![8192, 2048]⟩
abbrev S8192 : Shape := ⟨1, ![8192]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S16384x2048 .f32) (main_arg1 : FVec F S8192x2048 .f32) (main_arg2 : FVec F S8192 .f32) (main_arg3 : FVec F S8192x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Kernel.lean ====
abbrev S16384x2048 : Shape := ⟨2, ![16384, 2048]⟩
abbrev S8192x2048 : Shape := ⟨2, ![8192, 2048]⟩
abbrev S8192 : Shape := ⟨1, ![8192]⟩
abbrev S1x8192 : Shape := ⟨2, ![1, 8192]⟩
abbrev S16384x8192 : Shape := ⟨2, ![16384, 8192]⟩
abbrev S512x2048 : Shape := ⟨2, ![512, 2048]⟩
abbrev S2048x2048 : Shape := ⟨2, ![2048, 2048]⟩
abbrev S1x2048 : Shape := ⟨2, ![1, 2048]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S16384x2048, .bf16⟩
  | .hbm, ⟨7, _⟩ => ⟨S1x8192, .f32⟩
  | .hbm, ⟨8, _⟩ => ⟨S16384x8192, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .bf16 = 32 ∨ (Rect.block (s := S16384x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x2048.size a
  hwx0_1 : ∀ i : grid0.Coords, EltTy.bits .bf16 = 32 ∨ (Rect.block (s := S8192x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x8192.size a
  hwx0_3 : ∀ i : grid0.Coords, EltTy.bits .f32 = 32 ∨ (Rect.block (s := S16384x8192) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8192x2048 : Shape := ⟨2, ![8192, 2048]⟩
abbrev S8192 : Shape := ⟨1, ![8192]⟩
abbrev S2048x8192 : Shape := ⟨2, ![2048, 8192]⟩
abbrev S16384x8192 : Shape := ⟨2, ![16384, 8192]⟩
abbrev S1x8192 : Shape := ⟨2, ![1, 8192]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S2048x8192, .f32⟩
  | .hbm, ⟨6, _⟩ => ⟨S16384x8192, .f32⟩
  | .hbm, ⟨7, _⟩ => ⟨S1x8192, .f32⟩
  | .hbm, ⟨8, _⟩ => ⟨S16384x8192, .f32⟩
  | .hbm, ⟨9, _⟩ => ⟨S16384x8192, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  dot_S16384x2048_S2048x8192_S16384x8192_1_0_0_1_n_n_wf : DotDims.WF S16384x2048 S2048x8192 S16384x8192 [1] [0] [0] [1] [] []

variable [Facts₀]

def dot_S16384x2048_S2048x8192_S16384x8192_1_0_0_1_n_n : DotDims S16384x2048 S2048x8192 S16384x8192 where
  lhsContracting := [1]
  rhsContracting := [0]
  lhsNonContracting := [0]
  rhsNonContracting := [1]
  lhsBatch := []
  rhsBatch := []
  wf := dot_S16384x2048_S2048x8192_S16384x8192_1_0_0_1_n_n_wf

class Facts : Prop extends Facts₀ where

variable [Facts]
-- ==== Proof.MaskedLinear.lean ====
/-
  The masked linear layer as one function of its four arrays, on the extended reals.

  For an input x of 16384 rows and 2048 features, a weight matrix w and a mask of 8192 rows by 2048 features, and a
  bias b of 8192 entries, the layer's entry at row r and output feature n is

      y(r, n) = Σ_{k < 2048} x(r, k) · (mask(n, k) · w(n, k)) + b(n).

  The mask is folded into the weight before the product, the contraction runs over the feature axis of both
  operands, and the bias is added last. Both programs of this certificate compute exactly this term, entry by entry:
  no rearrangement of the sum is involved, so nothing here needs the entries to be finite.
-/
import Idealize.ShloMosaic.PureOps.Ideal
import Idealize.ShloMosaic.Lib.ValueIdx

noncomputable section

open scoped BigOperators

namespace Cert.MaskedLinear

open Idealize.ShloMosaic Idealize.ShloMosaic.ValueIdx

/-- The masked weight: mask · w, entry by entry. -/
def maskedWeight (w mask : FVec Ideal ⟨2, ![8192, 2048]⟩ .f32) : FVec Ideal ⟨2, ![8192, 2048]⟩ .f32 :=
  fun i => mask i * w i

/-- The masked weight at an entry. -/
theorem maskedWeight_apply (w mask : FVec Ideal ⟨2, ![8192, 2048]⟩ .f32) (i : (⟨2, ![8192, 2048]⟩ : Shape).Idx) :
    maskedWeight w mask i = mask i * w i := rfl

/-- The layer's result array: entry (r, n) is the product of row r of x with row n of the masked weight, plus b(n). -/
def layer (x : FVec Ideal ⟨2, ![16384, 2048]⟩ .f32) (w : FVec Ideal ⟨2, ![8192, 2048]⟩ .f32)
    (b : FVec Ideal ⟨1, ![8192]⟩ .f32) (mask : FVec Ideal ⟨2, ![8192, 2048]⟩ .f32) :
    FVec Ideal ⟨2, ![16384, 8192]⟩ .f32 :=
  fun i => (∑ k : Fin 2048, x (ix2 (i 0) k) * (mask (ix2 (i 1) k) * w (ix2 (i 1) k))) + b (ix1 (i 1))

/-- The layer at an entry written by its coordinates. -/
theorem layer_apply (x : FVec Ideal ⟨2, ![16384, 2048]⟩ .f32) (w : FVec Ideal ⟨2, ![8192, 2048]⟩ .f32)
    (b : FVec Ideal ⟨1, ![8192]⟩ .f32) (mask : FVec Ideal ⟨2, ![8192, 2048]⟩ .f32) (r : Fin 16384) (n : Fin 8192) :
    layer x w b mask (ix2 r n)
      = (∑ k : Fin 2048, x (ix2 r k) * (mask (ix2 n k) * w (ix2 n k))) + b (ix1 n) := rfl

end Cert.MaskedLinear

end
-- ==== Proof.ReferenceLayer.lean ====
/-
  The reference program computes the masked linear layer.

  The reference multiplies the mask into the weight, transposes the product to features-by-outputs, contracts x's
  feature axis with the transposed matrix's leading axis, lays the bias out as a row and repeats it over the
  16384 rows, and adds. Read at entry (r, n): the contraction is Σ_k x(r, k) · t(k, n) with t(k, n) the masked
  weight at (n, k), and the repeated row is b(n). That is the layer's term, with nothing reordered.
-/
import proofs.«174090_j47304769798211_2_alg».proof.Proof.Gen.ReferenceIdeal.Read
import proofs.«174090_j47304769798211_2_alg».proof.Proof.MaskedLinear

noncomputable section

open scoped BigOperators

namespace Cert.ReferenceIdeal.RefValue

open Cert.ReferenceIdeal Cert.ReferenceIdeal.Read Idealize.ShloMosaic Idealize.ShloMosaic.ValueIdx

/-- The left operand of the contraction at (r, n), term k, is x at (r, k). -/
theorem lhs_entry (r : Fin 16384) (n : Fin 8192) (k : Fin 2048) : lidx_main_v2 (ix2 r n) k = ix2 r k :=
  funext fun a => Fin.ext (by match a with | ⟨0, _⟩ => rfl | ⟨1, _⟩ => rfl)

/-- The right operand at (r, n), term k, is the transposed matrix at (k, n): the masked weight at (n, k). -/
theorem rhs_entry (r : Fin 16384) (n : Fin 8192) (k : Fin 2048) : idx_main_v1 (ridx_main_v2 (ix2 r n) k) = ix2 n k :=
  funext fun a => Fin.ext (by match a with | ⟨0, _⟩ => rfl | ⟨1, _⟩ => rfl)

/-- The bias row repeated over the rows, at (r, n), is the bias at n. -/
theorem bias_entry (r : Fin 16384) (n : Fin 8192) : idx_main_v3 (idx_main_v4 (ix2 r n)) = ix1 n :=
  funext fun a => Fin.ext (by match a with | ⟨0, _⟩ => rfl)

/-- The reference's result, as the composition of its six operations, is the layer of its four arguments. -/
theorem reference_eq (x0 : FVec Ideal S16384x2048 .f32) (x1 : FVec Ideal S8192x2048 .f32) (x2 : FVec Ideal S8192 .f32)
    (x3 : FVec Ideal S8192x2048 .f32) :
    val_main_v5 (F := Ideal) x0 x1 x2 x3 = Cert.MaskedLinear.layer x0 x1 x2 x3 := by
  funext i
  obtain ⟨r, n, rfl⟩ : ∃ (r : Fin 16384) (n : Fin 8192), i = ix2 r n := ⟨i 0, i 1, eq_ix2 i⟩
  rw [val_main_v5_apply, val_main_v2_apply, val_main_v4_apply, val_main_v3_apply, Cert.MaskedLinear.layer_apply]
  simp only [val_main_v1_apply, val_main_v0_apply, lhs_entry, rhs_entry, bias_entry, Ideal.addf_def, Ideal.mulf_def]

end Cert.ReferenceIdeal.RefValue

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.BodyEntry.lean ====
/-
  What the kernel body stores, read at an entry.

  At a grid point the body holds a 512-row block of x, a 2048-row block of the masked weight and a one-row block of
  the bias. It contracts the feature axes of the first two into a zero accumulator, repeats the bias row over the
  512 rows and adds. Entry (p, q) of what it stores is therefore

      Σ_{k < 2048} xblock(p, k) · wblock(q, k) + biasrow(0, q).
-/
import proofs.«174090_j47304769798211_2_alg».proof.Proof.Gen.KernelIdeal.Skeleton
import proofs.«174090_j47304769798211_2_alg».proof.Proof.LibMatmulNT
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- The stored block at (p, q): the product of row p of the x block with row q of the weight block, plus the bias
    row's entry q. -/
theorem stored_entry (xb : FVec Ideal S512x2048 .bf16) (wb : FVec Ideal S2048x2048 .bf16) (bb : FVec Ideal S1x2048 .f32)
    (p : Fin 512) (q : Fin 2048) :
    k0_pay1 (F := Ideal) xb wb bb (ix2 p q)
      = (∑ k : Fin 2048, xb (ix2 p k) * wb (ix2 q k)) + bb (ix2 (0 : Fin 1) q) := by
  unfold k0_pay1
  simp only [shapeCast_self]
  rw [addf_apply, broadcastTo_1b_ab_apply]
  exact congrArg (· + bb (ix2 (0 : Fin 1) q))
    (Cert.LibMatmulNT.matmul_nt_zero_apply dot_S512x2048_S2048x2048_S512x2048_1_1_0_0_n_n rfl none xb wb p q)

end Cert.KernelIdeal.Body

end
-- ==== Proof.Prologue.lean ====
/-
  What the three staged arrays hold when the region is entered.

  Before the region the program forms the masked weight (mask · w, entry by entry), changes its format and x's
  format (a change of format is the identity on the extended reals), and lays the bias out as one row of 8192
  entries. So the region finds: the staged x equal to x; the staged weight at (n, k) equal to mask(n, k) · w(n, k);
  the staged bias row at (0, n) equal to b(n).
-/
import proofs.«174090_j47304769798211_2_alg».proof.Proof.Gen.KernelIdeal.Frame
import proofs.«174090_j47304769798211_2_alg».proof.Proof.MaskedLinear
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Prologue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The staged x is x with its format changed. -/
theorem staged_x (c : Dev nD) :
    V m c main_v2
      = truncf (F := Ideal) (s := S16384x2048) (φ := .f32) .bf16 (m ((c : Thread nD τ).loc main_arg0)) bitsLt_bf16_f32 := by
  dsimp only [Gen.V, Gen.hostOps0]; after_results

/-- The staged weight is the masked weight with its format changed. -/
theorem staged_w (c : Dev nD) :
    V m c main_v1
      = truncf (F := Ideal) (s := S8192x2048) (φ := .f32) .bf16
          (mulf (F := Ideal) (s := S8192x2048) (φ := .f32) (m ((c : Thread nD τ).loc main_arg3))
            (m ((c : Thread nD τ).loc main_arg1))) bitsLt_bf16_f32 := by
  dsimp only [Gen.V, Gen.hostOps0]; after_results

/-- The staged bias is the bias laid out as one row. -/
theorem staged_b (c : Dev nD) :
    V m c main_v3
      = shapeCast (α := EReal) (s := S8192) S1x8192 (m ((c : Thread nD τ).loc main_arg2)) shapeCasts_S8192_S1x8192 := by
  dsimp only [Gen.V, Gen.hostOps0]; after_results; rfl

/-- The staged x at (r, k) is x at (r, k). -/
theorem staged_x_apply (c : Dev nD) (r : Fin 16384) (k : Fin 2048) :
    V m c main_v2 (ix2 r k) = m ((c : Thread nD τ).loc main_arg0) (ix2 r k) := by
  rw [staged_x]; rfl

/-- The staged weight at (n, k) is mask(n, k) · w(n, k). -/
theorem staged_w_apply (c : Dev nD) (n : Fin 8192) (k : Fin 2048) :
    V m c main_v1 (ix2 n k)
      = Cert.MaskedLinear.maskedWeight (m ((c : Thread nD τ).loc main_arg1)) (m ((c : Thread nD τ).loc main_arg3)) (ix2 n k) := by
  rw [staged_w]; rfl

/-- The staged bias row at (0, n) is b(n). -/
theorem staged_b_apply (c : Dev nD) (u : Fin 1) (n : Fin 8192) :
    V m c main_v3 (ix2 u n) = m ((c : Thread nD τ).loc main_arg2) (ix1 n) := by
  rw [staged_b]; exact shapeCast_a_1a_apply _ _ u n

end Cert.KernelIdeal.Prologue

end
-- ==== Proof.Blocks.lean ====
/-
  From what each grid point writes back to the whole result array.

  The grid has 4 × 32 points; the point with coordinates (ni, mi) works on rows 512·mi … 512·mi + 511 of x, rows
  2048·ni … 2048·ni + 2047 of the masked weight, columns 2048·ni … of the bias row, and writes block (mi, ni) of the
  result, 512 rows by 2048 columns. Entry (p, q) of that block is entry (512·mi + p, 2048·ni + q) of the result, and
  the three input blocks at the entries the body reads are x at (512·mi + p, k), the masked weight at
  (2048·ni + q, k) and the bias at 2048·ni + q. So what the point writes back is its block of the layer of the four
  arguments; the 128 blocks tile the 16384 × 8192 array (the block holding row r and column n is (r / 512, n / 2048)),
  hence the array ends as the layer.
-/
import proofs.«174090_j47304769798211_2_alg».proof.Proof.Gen.KernelIdeal.Value
import proofs.«174090_j47304769798211_2_alg».proof.Proof.MaskedLinear
import proofs.«174090_j47304769798211_2_alg».proof.Proof.BodyEntry
import proofs.«174090_j47304769798211_2_alg».proof.Proof.Prologue

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The layer of the four argument arrays as launched. -/
abbrev result (c : Dev nD) : FVec Ideal S16384x8192 .f32 :=
  Cert.MaskedLinear.layer (m ((c : Thread nD τ).loc main_arg0)) (m ((c : Thread nD τ).loc main_arg1))
    (m ((c : Thread nD τ).loc main_arg2)) (m ((c : Thread nD τ).loc main_arg3))

/-- The index maps, decided over the 128 points: the x block's row index is the result block's row index, the weight
    block's row index and the bias block's column index are the result block's column index, the other indices are
    zero, and the result's block indices stay below 32 and 4. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every one of the 32 × 4 result blocks is some point's. -/
theorem block_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- The x block at a point, entry (p, k): x at (R, k), R the result row the point's entry p lies in. -/
theorem xblock_apply (c : Dev nD) (t : Fin cfg0.N) (p : Fin 512) (k : Fin 2048) (R : Fin 16384)
    (hR : R.val = win0_3.index t (0 : Fin 2) * 512 + p.val) :
    (iblk m c 0 t : FVec Ideal S512x2048 .bf16) (ix2 p k) = m ((c : Thread nD τ).loc main_arg0) (ix2 R k) := by
  obtain ⟨e0, e1, -⟩ := block_indices t
  unfold iblk
  rw [View.read_apply]
  show V m c main_v2 _ = _
  have he : ((cfg0.win 0).blk t).view.emb (ix2 p k) = ix2 R k := funext fun a => Fin.ext (by
    match a with
    | ⟨0, _⟩ => show win0_0.index t (0 : Fin 2) * 512 + 1 * p.val = R.val; omega
    | ⟨1, _⟩ => show win0_0.index t (1 : Fin 2) * 2048 + 1 * k.val = k.val; omega)
  rw [he]
  exact Prologue.staged_x_apply m c R k

/-- The weight block at a point, entry (q, k): mask · w at (N, k), N the result column the point's entry q lies in. -/
theorem wblock_apply (c : Dev nD) (t : Fin cfg0.N) (q : Fin 2048) (k : Fin 2048) (N : Fin 8192)
    (hN : N.val = win0_3.index t (1 : Fin 2) * 2048 + q.val) :
    (iblk m c 1 t : FVec Ideal S2048x2048 .bf16) (ix2 q k)
      = Cert.MaskedLinear.maskedWeight (m ((c : Thread nD τ).loc main_arg1)) (m ((c : Thread nD τ).loc main_arg3)) (ix2 N k) := by
  obtain ⟨-, -, e2, e3, -⟩ := block_indices t
  unfold iblk
  rw [View.read_apply]
  show V m c main_v1 _ = _
  have he : ((cfg0.win 1).blk t).view.emb (ix2 q k) = ix2 N k := funext fun a => Fin.ext (by
    match a with
    | ⟨0, _⟩ => show win0_1.index t (0 : Fin 2) * 2048 + 1 * q.val = N.val; omega
    | ⟨1, _⟩ => show win0_1.index t (1 : Fin 2) * 2048 + 1 * k.val = k.val; omega)
  rw [he]
  exact Prologue.staged_w_apply m c N k

/-- The bias block at a point, entry (0, q): b at N. -/
theorem bblock_apply (c : Dev nD) (t : Fin cfg0.N) (q : Fin 2048) (N : Fin 8192)
    (hN : N.val = win0_3.index t (1 : Fin 2) * 2048 + q.val) :
    (iblk m c 2 t : FVec Ideal S1x2048 .f32) (ix2 (0 : Fin 1) q) = m ((c : Thread nD τ).loc main_arg2) (ix1 N) := by
  obtain ⟨-, -, -, -, e4, e5, -⟩ := block_indices t
  unfold iblk
  rw [View.read_apply]
  show V m c main_v3 _ = _
  have he : ((cfg0.win 2).blk t).view.emb (ix2 (0 : Fin 1) q) = ix2 (0 : Fin 1) N := funext fun a => Fin.ext (by
    match a with
    | ⟨0, _⟩ => show win0_2.index t (0 : Fin 2) * 1 + 1 * 0 = 0; omega
    | ⟨1, _⟩ => show win0_2.index t (1 : Fin 2) * 2048 + 1 * q.val = N.val; omega)
  rw [he]
  exact Prologue.staged_b_apply m c 0 N

/-- What the body stores at a point, entry j of the block, is the layer at the entry of the result that j is. -/
theorem written_entry (c : Dev nD) (t : Fin cfg0.N) (j : S512x2048.Idx) :
    k0_pay1 (F := Ideal) (iblk m c 0 t) (iblk m c 1 t) (iblk m c 2 t) j
      = result m c (((cfg0.win 3).blk t).view.emb j) := by
  obtain ⟨p, q, rfl⟩ : ∃ (p : Fin 512) (q : Fin 2048), j = ix2 p q := ⟨j 0, j 1, eq_ix2 j⟩
  obtain ⟨-, -, -, -, -, -, b0, b1⟩ := block_indices t
  have hp : p.val < 512 := p.isLt
  have hq : q.val < 2048 := q.isLt
  have hR : win0_3.index t (0 : Fin 2) * 512 + p.val < 16384 := by omega
  have hN : win0_3.index t (1 : Fin 2) * 2048 + q.val < 8192 := by omega
  have he : ((cfg0.win 3).blk t).view.emb (ix2 p q)
      = ix2 (⟨win0_3.index t (0 : Fin 2) * 512 + p.val, hR⟩ : Fin 16384) (⟨win0_3.index t (1 : Fin 2) * 2048 + q.val, hN⟩ : Fin 8192) :=
    funext fun a => Fin.ext (by
      match a with
      | ⟨0, _⟩ => show win0_3.index t (0 : Fin 2) * 512 + 1 * p.val = win0_3.index t (0 : Fin 2) * 512 + p.val; omega
      | ⟨1, _⟩ => show win0_3.index t (1 : Fin 2) * 2048 + 1 * q.val = win0_3.index t (1 : Fin 2) * 2048 + q.val; omega)
  rw [he]
  refine (Body.stored_entry (iblk m c 0 t) (iblk m c 1 t) (iblk m c 2 t) p q).trans ?_
  refine Eq.trans ?_ (Cert.MaskedLinear.layer_apply _ _ _ _ _ _).symm
  refine congrArg₂ (· + ·) (Finset.sum_congr rfl fun k _ => ?_) ?_
  · rw [xblock_apply m c t p k ⟨_, hR⟩ rfl, wblock_apply m c t q k ⟨_, hN⟩ rfl]
    rfl
  · exact bblock_apply m c t q ⟨_, hN⟩ rfl

/-- What a point writes back is its block of the layer. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero origin]
  simp only [View.ld_unit_zero (S := S512x2048) origin, View.ld_unit_zero (S := S2048x2048) origin,
    View.ld_unit_zero (S := S1x2048) origin]
  funext j
  exact written_entry m c t j

/-- An index of the result is in a point's block iff each coordinate is in the block's range on its axis. -/
theorem mem_block (t : Fin cfg0.N) (i : S16384x8192.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v4).slice (win0_3.rect t)).set ↔ _
  rw [View.set_slice_whole, Rect.mem_set_unit]
  exact Iff.rfl

/-- The blocks tile the result: entry (r, n) lies in block (r / 512, n / 2048). -/
theorem covered (i : S16384x8192.Idx) :
    ∃ t : Fin cfg0.N, (cfg0.win 3).flush t = true ∧ i ∈ ((cfg0.win 3).blk t).view.set := by
  have hi0 : (i 0).val < 16384 := (i 0).isLt
  have hi1 : (i 1).val < 8192 := (i 1).isLt
  obtain ⟨t, ht⟩ := block_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The result array after the run is the layer of the arguments. -/
theorem final (c : Dev nD) : (dats m 0 c).arrAt 3 cfg0.N = result m c :=
  (dats m 0 c).arrAt_eq_of_cover 3 (result m c) (fun t _ => flushed_eq m c t) covered

/-- The kernel's run: it terminates with the result array at the layer of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.lean ====
/-
  A masked linear layer, y = x · (mask ∘ w)ᵀ + b, computed by a tiled kernel and by a plain reference: the two
  agree entry by entry on the extended reals.

  With x of 16384 rows by 2048 features, w and mask of 8192 rows by 2048 features and b of 8192 entries, both
  programs compute, at row r and output feature n,

      y(r, n) = Σ_{k < 2048} x(r, k) · (mask(n, k) · w(n, k)) + b(n).

  The reference forms mask · w, transposes it, contracts x's feature axis with the transposed matrix's leading
  axis, and adds the bias repeated over the rows. The kernel forms mask · w, changes the format of it and of x (the
  identity on the extended reals), lays the bias out as a row, and then runs a 4 × 32 grid: the point (ni, mi) contracts
  the feature axes of rows 512·mi … of x and rows 2048·ni … of the masked weight into a zero accumulator, adds columns
  2048·ni … of the bias row to every row, and writes block (mi, ni) of the result. The 128 blocks tile the result, and
  each block's entry (p, q) is the layer's term at (512·mi + p, 2048·ni + q) with its summands in the same order,
  so the equality uses no rearrangement of the sum and no finiteness of the entries.

  The modules: MaskedLinear (the layer as one function of the four arrays), ReferenceLayer (the reference's six
  operations composed are the layer), BodyEntry (what the kernel body stores, at an entry), Prologue (what the three
  staged arrays hold when the grid starts), Blocks (each point writes its block of the layer; the blocks tile the
  result; the kernel's run), and here the five claims. The idealized kernel is the kernel's own text read on the
  extended reals: no operation was rewritten, so that claim is trivial.
-/
import proofs.«174090_j47304769798211_2_alg».proof.Defs
import proofs.«174090_j47304769798211_2_alg».proof.Proof.Gen.Kernel
import proofs.«174090_j47304769798211_2_alg».proof.Proof.Gen.Kernel.Skeleton
import proofs.«174090_j47304769798211_2_alg».proof.Proof.Gen.Kernel.Launch
import proofs.«174090_j47304769798211_2_alg».proof.Proof.Gen.Kernel.Points
import proofs.«174090_j47304769798211_2_alg».proof.Proof.Gen.Kernel.Frame
import proofs.«174090_j47304769798211_2_alg».proof.Proof.Gen.KernelIdeal
import proofs.«174090_j47304769798211_2_alg».proof.Proof.Gen.KernelIdeal.Skeleton
import proofs.«174090_j47304769798211_2_alg».proof.Proof.Gen.KernelIdeal.Launch
import proofs.«174090_j47304769798211_2_alg».proof.Proof.Gen.KernelIdeal.Points
import proofs.«174090_j47304769798211_2_alg».proof.Proof.Gen.KernelIdeal.Frame
import proofs.«174090_j47304769798211_2_alg».proof.Proof.Gen.ReferenceIdeal
import proofs.«174090_j47304769798211_2_alg».proof.Proof.Gen.Pre_finite_inputs
import proofs.«174090_j47304769798211_2_alg».proof.Proof.Gen.KernelIdeal.Value
import proofs.«174090_j47304769798211_2_alg».proof.Proof.Gen.ReferenceIdeal.Run
import proofs.«174090_j47304769798211_2_alg».proof.Proof.Gen.ReferenceIdeal.Read
import proofs.«174090_j47304769798211_2_alg».proof.Proof.ReferenceLayer
import proofs.«174090_j47304769798211_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end without a fault and leaves its four arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- From memories agreeing on the four arguments, the kernel's result array ends at the layer of the arguments and so
    does the reference's. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
